-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩

abbrev nBuf : Space → Nat
  | .hbm => 10
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S10000x256, .f32⟩
  | .hbm, ⟨9, _⟩ => ⟨S10000x256, .f32⟩
  | .local _ .vmem, ⟨0, _⟩ => ⟨S10000x256, .f32⟩
  | .local _ .vmem, ⟨1, _⟩ => ⟨S400x10000, .f32⟩
  | .local _ .vmem, ⟨2, _⟩ => ⟨S400x10000, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S400x256, .f32⟩
  | .local _ .vmem, ⟨8, _⟩ => ⟨S400x256, .f32⟩
  | .local _ .vmem, ⟨9, _⟩ => ⟨S10000x256, .bf16⟩
  | .local _ .vmem, ⟨10, _⟩ => ⟨S400x10000, .f32⟩
  | .local _ .vmem, ⟨11, _⟩ => ⟨S400x10000, .f32⟩
  | .local _ .vmem, ⟨12, _⟩ => ⟨S10000x256, .f32⟩
  | .local _ .vmem, ⟨13, _⟩ => ⟨S400x256, .f32⟩
  | .local _ .vmem, ⟨14, _⟩ => ⟨S400x256, .f32⟩
  | .local _ .vmem, ⟨15, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S400x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000x256, .f32⟩
  | .hbm, ⟨21, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Kernel.Basics.lean ====
/-
  Two facts every access of the two kernel bodies uses. Each body loads and stores WHOLE buffers: through the
  rectangle of the buffer's own sizes at offsets (0, 0). So a load reads the buffer's contents, and a store
  replaces them: what the buffer held before does not matter.
-/
import proofs.«100465_g12077448036904_cont_main3_85_6_alg».proof.Proof.Gen.Kernel.Launch
import proofs.«100465_g12077448036904_cont_main3_85_6_alg».proof.Proof.Gen.Kernel.Skeleton
import proofs.«100465_g12077448036904_cont_main3_85_6_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the two bodies: both coordinates zero. -/
theorem zero_off : (![0, 0] : Fin 2 → Nat) = fun _ => 0 := funext fun a => by fin_cases a <;> rfl

/-- A buffer stored whole, through the rectangle of its own sizes at zero offsets, reads back as the stored value,
    whatever it held before. -/
theorem read_store_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

end Cert.Kernel.Layers

end
-- ==== Proof.Kernel.Layer1Body.lean ====
/-
  The first layer's kernel body, run at one grid point on whole staging buffers.
  Its operands: x (whole), a band of 400 rows of adj, W1, b1 (as a row), W2, b2 (as a row), the output band, and a
  scratch buffer of the size of x that the kernel keeps from point to point.
  At the FIRST grid point (coordinate 0) the body stores  hidden := bf16 (x · W1 + b1)  into the scratch; at every point
  it then stores  relu (band · scratch) · W2 + b2  into the output band. So:
  * at the first point the scratch may hold anything on entry, and ends at hidden(x, W1, b1);
  * at a later point the scratch is only read: the output band is computed from whatever it holds, and it is unchanged.
  The two payload functions are the skeleton's (the store into the scratch, the store into the output band).
-/
import proofs.«100465_g12077448036904_cont_main3_85_6_alg».proof.Proof.Kernel.Basics

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first layer's body tests whether the grid coordinate is zero. -/
abbrev cond0 (i : grid0.Coords) : Prop := (Scalar.cmpi .ne (Scalar.extui (Scalar.cmpi .eq (BitVec.ofNat 32 (i 0).val) 0#32)) 0#32) = 1#1

set_option maxHeartbeats 2000000 in
/-- At a point whose coordinate is zero: the scratch, at anything before, ends at the hidden layer of the three
    operands it is computed from, and the output band at its payload of the adj band, THAT hidden layer, W2 and b2. -/
theorem layer1_first (c : Dev nD) (E : Set ℕ) (i : grid0.Coords)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .bf16) (harg8 : arg8.IsWhole)
    (hc : cond0 i)
    (x0 : Vec F S10000x256 .f32) (x1 : Vec F S400x10000 .f32) (x2 : Vec F S256x256 .f32) (x3 : Vec F S1x256 .f32)
    (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 x1 (k0_pay1 x0 x2 x3) x4 x5)
            ∗ owns (c : Thread nD τ) arg8 fullShare (k0_pay1 x0 x2 x3)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  subst hf0 hf1 hf2 hf3 hf4 hf5
  sl_exec (disch := exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    sl_unfold_run_names
    rw [read_store_whole _ _ zero_off, View.readCov_unit_zero _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists _; isplitr
    swap; · iexact H8
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]

set_option maxHeartbeats 2000000 in
/-- At a point whose coordinate is not zero: the scratch, at `xs`, is read and left as it is, and the output band
    ends at its payload of the adj band, `xs`, W2 and b2. -/
theorem layer1_later (c : Dev nD) (E : Set ℕ) (i : grid0.Coords)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .bf16) (harg8 : arg8.IsWhole)
    (hc : ¬cond0 i)
    (x0 : Vec F S10000x256 .f32) (x1 : Vec F S400x10000 .f32) (x2 : Vec F S256x256 .f32) (x3 : Vec F S1x256 .f32)
    (x4 : Vec F S256x256 .f32) (x5 : Vec F S1x256 .f32) (xs : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 x1 xs x4 x5)
            ∗ owns (c : Thread nD τ) arg8 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0 hf1 hf2 hf3 hf4 hf5 hf8
  sl_exec (disch := exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists f8; isplitr; · ipureintro; rfl
    iexact H8

end Cert.Kernel.Layers

end
-- ==== Proof.Kernel.Layer1Data.lean ====
/-
  The first layer's pallas_call as a pipeline over 25 grid points, from buffer contents `V` at its entry.
  Windows 0, 2, 3, 4, 5 (x, W1, b1 as a row, W2, b2 as a row) have one block, the whole array; window 1 is the band of
  400 rows of adj at the point; window 6 is the output band at the point.
  What the kernel keeps in its scratch is ONE value from the first point on: the hidden layer  bf16 (x · W1 + b1)
  computed from the blocks of windows 0, 2, 3 at the first point. So the output band at EVERY point is the same function
  of that point's adj band, this hidden layer, W2 and b2 — nothing accumulates from point to point.
  The invariant between points: before the first point every scoped buffer is at anything; after it, the scratch holds
  the hidden layer and the other scoped buffers are at anything.
-/
import proofs.«100465_g12077448036904_cont_main3_85_6_alg».proof.Proof.Kernel.Layer1Body

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pallas_call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev first0 : Fin cfg0.N := ⟨0, by rw [show cfg0.N = 25 from N_0]; omega⟩

/-- The hidden layer the kernel keeps in its scratch: computed at the first point from x, W1 and b1. -/
def hid0 (c : Dev nD) : Vec F S10000x256 .bf16 :=
  k0_pay1 (iblk0 V c 0 first0) (iblk0 V c 2 first0) (iblk0 V c 3 first0)

/-- An input window's current staging buffer holds the window's block at every point, fetched there or not: where
    it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The condition, decided over the grid -/

/-- The body's test holds at the first point only. -/
theorem hcond0 : ∀ t : Fin cfg0.N, cond0 (grid0.coords t) ↔ t.val = 0 :=
  (by decide +kernel : ∀ t : Fin grid0.N, cond0 (grid0.coords t) ↔ t.val = 0)

/-! ## The invariant between points -/

/-- The scratch the kernel keeps. -/
abbrev scr0 : Memref sig .tc .vmem S10000x256 .bf16 := Memref.whole cc0_scratch0

/-- The core's other scoped buffers that this pallas_call does not stage (the second layer's), each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant (every scoped buffer no window stages at anything, the generator register at some state) with the
    scratch named as a memref. -/
theorem PhiA0_eq (c : Dev nD) :
    (Pipeline.ΦA spec0 c : sProp 𝕄)
      = iprop(((∃ d, owns (c : Thread nD τ) scr0 fullShare d) ∗ rest0 c) ∗ (∃ r, prngReg c r)) := by
  unfold Pipeline.ΦA; rw [scopedRest0_eq]; simp only [scr0, owns_whole]; try rfl

/-- The invariant before position `n`: the class's before the first point; afterwards the scratch at the hidden layer. -/
def Phi0 (c : Dev nD) : ℕ → sProp 𝕄
  | 0 => Pipeline.ΦA spec0 c
  | _ + 1 => iprop((owns (c : Thread nD τ) scr0 fullShare (hid0 V c) ∗ rest0 c) ∗ (∃ r, prngReg c r))

/-- After any point the invariant gives the class's back: the scratch's contents are forgotten. -/
theorem Phi0_out (c : Dev nD) (n : ℕ) : Phi0 V c (n + 1) ⊢ Pipeline.ΦA spec0 c := by
  rw [PhiA0_eq]
  show iprop((owns (c : Thread nD τ) scr0 fullShare (hid0 V c) ∗ rest0 c) ∗ (∃ r, prngReg c r)) ⊢ _
  iintro ⟨⟨HS, HR⟩, Hg⟩
  isplitl [HS HR]
  · isplitl [HS]
    · iexists _; iexact HS
    iexact HR
  iexact Hg

/-! ## The proof data -/

/-- The arrays as the pallas_call finds them; after the body at point `t` each input's buffer at its block and the output's
    at the payload of that point's adj band, the hidden layer, W2 and b2; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (iblk0 V c 1 t) (hid0 V c) (iblk0 V c 4 t) (iblk0 V c 5 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay2 (iblk0 V c 1 t) (hid0 V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The invariant at a point's start and end, restated at the point's number. -/
theorem Phi0_castSucc (c : Dev nD) (t : Fin cfg0.N) : (dat0 V c).Φ t.castSucc = Phi0 V c t.val := by
  dsimp only [dat0]; simp only [Fin.coe_castSucc]
theorem Phi0_succ (c : Dev nD) (t : Fin cfg0.N) : (dat0 V c).Φ t.succ = Phi0 V c (t.val + 1) := by
  dsimp only [dat0]; simp only [Fin.val_succ]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point. At the first point the invariant hands the scratch over at anything and takes it back at the
    hidden layer; at a later point it hands it over at the hidden layer and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, Phi0_castSucc, Phi0_succ]
  by_cases hz : t.val = 0
  · obtain rfl : t = first0 := Fin.ext hz
    rw [show Phi0 V c (first0 : Fin cfg0.N).val = Pipeline.ΦA spec0 c from rfl, PhiA0_eq]
    show _ ⊢ wp _ _ _ _ (fun _ => iprop(iprop((owns (c : Thread nD τ) scr0 fullShare (hid0 V c) ∗ rest0 c) ∗ (∃ r, prngReg c r)) ∗ _))
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (layer1_first c Set.univ (grid0.coords first0) _ _ _ _ _ _ _ _ _ _ _ _ _ _ _ _ ((hcond0 first0).mpr rfl)
      (iblk0 V c 0 first0) (iblk0 V c 1 first0) (iblk0 V c 2 first0) (iblk0 V c 3 first0) (iblk0 V c 4 first0) (iblk0 V c 5 first0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero hz
    rw [hn]
    show iprop(iprop((owns (c : Thread nD τ) scr0 fullShare (hid0 V c) ∗ rest0 c) ∗ (∃ r, prngReg c r)) ∗ _) ⊢ wp _ _ _ _ (fun _ => iprop(iprop((owns (c : Thread nD τ) scr0 fullShare (hid0 V c) ∗ rest0 c) ∗ (∃ r, prngReg c r)) ∗ _))
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (layer1_later c Set.univ (grid0.coords t) _ _ _ _ _ _ _ _ _ _ _ _ _ _ _ _ (fun h => hz ((hcond0 t).mp h))
      (iblk0 V c 0 t) (iblk0 V c 1 t) (iblk0 V c 2 t) (iblk0 V c 3 t) (iblk0 V c 4 t) (iblk0 V c 5 t) (hid0 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layers

end
-- ==== Proof.Kernel.Layer2Body.lean ====
/-
  The second layer's kernel body, run at one grid point on whole staging buffers.
  Its operands: a band of 400 rows of adj, the first layer's result h2 (whole), the output band, and a scratch buffer
  of the size of h2 kept from point to point.
  At the FIRST grid point the body stores  bf16 (h2)  into the scratch; at every point it then stores
  relu (band · scratch)  into the output band.
-/
import proofs.«100465_g12077448036904_cont_main3_85_6_alg».proof.Proof.Kernel.Basics

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second layer's body tests whether the grid coordinate is zero. -/
abbrev cond1 (i : grid1.Coords) : Prop := (Scalar.cmpi .ne (Scalar.extui (Scalar.cmpi .eq (BitVec.ofNat 32 (i 0).val) 0#32)) 0#32) = 1#1

set_option maxHeartbeats 2000000 in
/-- At a point whose coordinate is zero: the scratch ends at the rounded copy of h2, the output band at its payload
    of the adj band and that copy. -/
theorem layer2_first (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S10000x256 .bf16) (harg4 : arg4.IsWhole)
    (hc : cond1 i)
    (x0 : Vec F S400x10000 .f32) (x1 : Vec F S10000x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 (k1_pay1 x1))
            ∗ owns (c : Thread nD τ) arg4 fullShare (k1_pay1 x1)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%d3, %f3, -, H3⟩, ⟨%d4, %f4, -, H4⟩, Hk⟩
  subst hf0 hf1
  sl_exec (disch := exact hc)
  sl_step
  iapply Hk
  isplitl [H0]; · iexists f0; isplitr; · ipureintro; rfl
                  iexact H0
  isplitl [H1]; · iexists f1; isplitr; · ipureintro; rfl
                  iexact H1
  isplitl [H3]
  · iexists _; isplitr
    swap; · iexact H3
    ipureintro
    sl_unfold_run_names
    rw [read_store_whole _ _ zero_off, View.readCov_unit_zero _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists _; isplitr
    swap; · iexact H4
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]

set_option maxHeartbeats 2000000 in
/-- At a point whose coordinate is not zero: the scratch, at `xs`, is read and left as it is, and the output band
    ends at its payload of the adj band and `xs`. -/
theorem layer2_later (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S10000x256 .bf16) (harg4 : arg4.IsWhole)
    (hc : ¬cond1 i)
    (x0 : Vec F S400x10000 .f32) (x1 : Vec F S10000x256 .f32) (xs : Vec F S10000x256 .bf16) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay2 x0 xs)
            ∗ owns (c : Thread nD τ) arg4 fullShare xs) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%d3, %f3, -, H3⟩, ⟨%f4, %hf4, H4⟩, Hk⟩
  subst hf0 hf1 hf4
  sl_exec (disch := exact hc)
  sl_step
  iapply Hk
  isplitl [H0]; · iexists f0; isplitr; · ipureintro; rfl
                  iexact H0
  isplitl [H1]; · iexists f1; isplitr; · ipureintro; rfl
                  iexact H1
  isplitl [H3]
  · iexists _; isplitr
    swap; · iexact H3
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists f4; isplitr; · ipureintro; rfl
    iexact H4

end Cert.Kernel.Layers

end
-- ==== Proof.Kernel.Layer2Data.lean ====
/-
  The second layer's pallas_call as a pipeline over 25 grid points, from buffer contents `V` at its entry.
  Window 0 is the band of 400 rows of adj at the point; window 1 the first layer's result, one block, the whole array;
  window 2 the output band at the point.
  The kernel's scratch holds ONE value from the first point on: the rounded copy  bf16 (h2)  of window 1's block at the
  first point; the output band at every point is  relu (band · that copy).
-/
import proofs.«100465_g12077448036904_cont_main3_85_6_alg».proof.Proof.Kernel.Layer2Body

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pallas_call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev first1 : Fin cfg1.N := ⟨0, by rw [show cfg1.N = 25 from N_1]; omega⟩

/-- What the kernel keeps in its scratch: the rounded copy of the first layer's result. -/
def hid1 (c : Dev nD) : Vec F S10000x256 .bf16 := k1_pay1 (iblk1 V c 1 first1)

/-- An input window's current staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The condition, decided over the grid -/

theorem hcond1 : ∀ t : Fin cfg1.N, cond1 (grid1.coords t) ↔ t.val = 0 :=
  (by decide +kernel : ∀ t : Fin grid1.N, cond1 (grid1.coords t) ↔ t.val = 0)

/-! ## The invariant between points -/

/-- The scratch the kernel keeps. -/
abbrev scr1 : Memref sig .tc .vmem S10000x256 .bf16 := Memref.whole cc1_scratch0

/-- The core's other scoped buffers that this pallas_call does not stage (the first layer's), each at anything. -/
abbrev rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f))

/-- The class invariant hands out the scratch, named as a memref, beside the other scoped buffers -/
theorem PhiA1_split (c : Dev nD) :
    (Pipeline.ΦA spec1 c : sProp 𝕄)
      ⊢ iprop(((∃ d, owns (c : Thread nD τ) scr1 fullShare d) ∗ rest1 c) ∗ (∃ r, prngReg c r)) := by
  unfold Pipeline.ΦA; rw [scopedRest1_eq]; simp only [scr1, owns_whole]
  iintro ⟨⟨A0, A1, A2, A3, A4, A5, A6, A7, A8, A9, HS⟩, Hg⟩
  isplitr [Hg]
  · isplitl [HS]; · iexact HS
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

/-- and takes it back. -/
theorem PhiA1_join (c : Dev nD) :
    iprop(((∃ d, owns (c : Thread nD τ) scr1 fullShare d) ∗ rest1 c) ∗ (∃ r, prngReg c r))
      ⊢ (Pipeline.ΦA spec1 c : sProp 𝕄) := by
  unfold Pipeline.ΦA; rw [scopedRest1_eq]; simp only [scr1, owns_whole]
  iintro ⟨⟨HS, A0, A1, A2, A3, A4, A5, A6, A7, A8, A9⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-- The invariant before position `n`: the class's before the first point; afterwards the scratch at the rounded copy. -/
def Phi1 (c : Dev nD) : ℕ → sProp 𝕄
  | 0 => Pipeline.ΦA spec1 c
  | _ + 1 => iprop((owns (c : Thread nD τ) scr1 fullShare (hid1 V c) ∗ rest1 c) ∗ (∃ r, prngReg c r))

/-- After any point the invariant gives the class's back: the scratch's contents are forgotten. -/
theorem Phi1_out (c : Dev nD) (n : ℕ) : Phi1 V c (n + 1) ⊢ Pipeline.ΦA spec1 c := by
  refine .trans ?_ (PhiA1_join c)
  show iprop((owns (c : Thread nD τ) scr1 fullShare (hid1 V c) ∗ rest1 c) ∗ (∃ r, prngReg c r)) ⊢ _
  iintro ⟨⟨HS, HR⟩, Hg⟩
  isplitl [HS HR]
  · isplitl [HS]
    · iexists _; iexact HS
    iexact HR
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (iblk1 V c 0 t) (hid1 V c)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay2 (iblk1 V c 0 t) (hid1 V c) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := by
  dsimp only [dat1]; simp only [Fin.val_succ]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any point: the scratch handed over at anything at the first point and taken back at the rounded copy;
    handed over at the rounded copy at a later point and taken back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2, Phi1_castSucc, Phi1_succ]
  by_cases hz : t.val = 0
  · obtain rfl : t = first1 := Fin.ext hz
    rw [show Phi1 V c (first1 : Fin cfg1.N).val = Pipeline.ΦA spec1 c from rfl]
    show _ ⊢ wp _ _ _ _ (fun _ => iprop(iprop((owns (c : Thread nD τ) scr1 fullShare (hid1 V c) ∗ rest1 c) ∗ (∃ r, prngReg c r)) ∗ _))
    iintro ⟨HΦ, Ho, ⟨%d0, H0⟩, ⟨%d1, H1⟩, ⟨%d2, H2⟩⟩
    ihave HΦ' := (PhiA1_split c) $$ HΦ
    icases HΦ' with ⟨⟨⟨%ds, HS⟩, HR⟩, Hg⟩
    iapply (layer2_first c Set.univ (grid1.coords first1) _ _ _ _ _ _ _ _ ((hcond1 first1).mpr rfl)
      (iblk1 V c 0 first1) (iblk1 V c 1 first1) _)
    isplitl [H0]; · iexact H0
    isplitl [H1]; · iexact H1
    isplitl [H2]; · iexists _; iexact H2
    isplitl [HS]; · iexists _; iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · obtain ⟨n, hn⟩ : ∃ n, t.val = n + 1 := Nat.exists_eq_succ_of_ne_zero hz
    rw [hn]
    show iprop(iprop((owns (c : Thread nD τ) scr1 fullShare (hid1 V c) ∗ rest1 c) ∗ (∃ r, prngReg c r)) ∗ _) ⊢ wp _ _ _ _ (fun _ => iprop(iprop((owns (c : Thread nD τ) scr1 fullShare (hid1 V c) ∗ rest1 c) ∗ (∃ r, prngReg c r)) ∗ _))
    iintro ⟨⟨⟨HS, HR⟩, Hg⟩, Ho, ⟨%d0, H0⟩, ⟨%d1, H1⟩, ⟨%d2, H2⟩⟩
    iapply (layer2_later c Set.univ (grid1.coords t) _ _ _ _ _ _ _ _ (fun h => hz ((hcond1 t).mp h))
      (iblk1 V c 0 t) (iblk1 V c 1 t) (hid1 V c) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layers

end
-- ==== Proof.Kernel.Run.lean ====
/-
  The whole program's run: the two reshapes of b1 and b2 into rows, the first layer's pallas_call, the second layer's.
  The contents of the core's unscoped buffers are followed through the three items: `W0` at launch, `W1` after the
  reshapes, `W2` after the first pallas_call (its arrays at what its pipeline leaves: every input as it was, the result
  at its 25 bands written back), `W3` after the second. Every weakly fair execution terminates, and the final memory
  holds `W3` at every unscoped buffer. From that: every argument array ends as launched (no item writes one), and the
  result is the second pipeline's output array.
-/
import proofs.«100465_g12077448036904_cont_main3_85_6_alg».proof.Proof.Kernel.Layer1Data
import proofs.«100465_g12077448036904_cont_main3_85_6_alg».proof.Proof.Kernel.Layer2Data

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary -/

/-- Core `c`'s buffers at launch. -/
abbrev W0 : Dev nD → Valuation τ sig (Elt F) := fun c b => (s₀ m ρ).mem ((c : Dev nD), b)
/-- After the two reshapes (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No item writes an argument -/

/-- The reshapes write the two row buffers only. -/
theorem W1_of_arg (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide) (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of_arg m ρ c main_arg1 (by decide) (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of_arg m ρ c main_arg2 (by decide) (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide) (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := W1_of_arg m ρ c main_arg4 (by decide) (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_arg m ρ c main_arg5 (by decide) (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The pallas_calls as segments -/

set_option backward.isDefEq.respectTransparency.types false in
/-- The first layer's pallas_call: entered from every unscoped buffer at `W1`, left at `W2`. Its arrays are split out
    of the unscoped buffers and put back at the exit contents; the generator register goes into the invariant and comes
    back; the scratch's contents are forgotten at the exit; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_out (V1 m ρ) c 24).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's pallas_call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_out (V2 m ρ) c 24).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    the final memory holds `W3` at every unscoped buffer of the core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The run with the result named: the result array ends at what the second pipeline leaves in its output array, and
    every argument as launched. -/
theorem run_result : θ_run defs (onTc (τ := τ) (main (F := F))) ⟨m, fun _ => 0, ρ⟩ (fun r => ∀ c : Dev nD,
      r.2.mem ((c.tc : Thread nD τ).loc main_v3) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel.Layers

end
-- ==== Proof.KernelIdeal.Basics.lean ====
/-
  Two facts every access of the two kernel bodies uses. Each body loads and stores WHOLE buffers: through the
  rectangle of the buffer's own sizes at offsets (0, 0). So a load reads the buffer's contents, and a store
  replaces them: what the buffer held before does not matter.
-/
import proofs.«100465_g12077448036904_cont_main3_85_6_alg».proof.Proof.Gen.KernelIdeal.Launch
import proofs.«100465_g12077448036904_cont_main3_85_6_alg».proof.Proof.Gen.KernelIdeal.Skeleton
import proofs.«100465_g12077448036904_cont_main3_85_6_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the two bodies: both coordinates zero. -/
theorem zero_off : (![0, 0] : Fin 2 → Nat) = fun _ => 0 := funext fun a => by fin_cases a <;> rfl

/-- A buffer stored whole, through the rectangle of its own sizes at zero offsets, reads back as the stored value,
    whatever it held before. -/
theorem read_store_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

end Cert.KernelIdeal.Layers

end
-- ==== Proof.KernelIdeal.Layer1Body.lean ====
/-
  The first layer's kernel body, run at one grid point on whole staging buffers.
  Its operands: x (whole), a band of 400 rows of adj, W1, b1 (as a row), W2, b2 (as a row), the output band, and a
  scratch buffer of the size of x that the kernel keeps from point to point.
  At the FIRST grid point (coordinate 0) the body stores  hidden := bf16 (x · W1 + b1)  into the scratch; at every point
  it then stores  relu (band · scratch) · W2 + b2  into the output band. So:
  * at the first point the scratch may hold anything on entry, and ends at hidden(x, W1, b1);
  * at a later point the scratch is only read: the output band is computed from whatever it holds, and it is unchanged.
  The two payload functions are the skeleton's (the store into the scratch, the store into the output band).
-/
import proofs.«100465_g12077448036904_cont_main3_85_6_alg».proof.Proof.KernelIdeal.Basics

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first layer's body tests whether the grid coordinate is zero. -/
abbrev cond0 (i : grid0.Coords) : Prop := (Scalar.cmpi .ne (Scalar.extui (Scalar.cmpi .eq (BitVec.ofNat 32 (i 0).val) 0#32)) 0#32) = 1#1

set_option maxHeartbeats 2000000 in
/-- At a point whose coordinate is zero: the scratch, at anything before, ends at the hidden layer of the three
    operands it is computed from, and the output band at its payload of the adj band, THAT hidden layer, W2 and b2. -/
theorem layer1_first (c : Dev nD) (E : Set ℕ) (i : grid0.Coords)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .bf16) (harg8 : arg8.IsWhole)
    (hc : cond0 i)
    (x0 : Vec F S10000x256 .f32) (x1 : Vec F S400x10000 .f32) (x2 : Vec F S256x256 .f32) (x3 : Vec F S1x256 .f32)
    (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 x1 (k0_pay1 x0 x2 x3) x4 x5)
            ∗ owns (c : Thread nD τ) arg8 fullShare (k0_pay1 x0 x2 x3)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  subst hf0 hf1 hf2 hf3 hf4 hf5
  sl_exec (disch := exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    sl_unfold_run_names
    rw [read_store_whole _ _ zero_off, View.readCov_unit_zero _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists _; isplitr
    swap; · iexact H8
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]

set_option maxHeartbeats 2000000 in
/-- At a point whose coordinate is not zero: the scratch, at `xs`, is read and left as it is, and the output band
    ends at its payload of the adj band, `xs`, W2 and b2. -/
theorem layer1_later (c : Dev nD) (E : Set ℕ) (i : grid0.Coords)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .bf16) (harg8 : arg8.IsWhole)
    (hc : ¬cond0 i)
    (x0 : Vec F S10000x256 .f32) (x1 : Vec F S400x10000 .f32) (x2 : Vec F S256x256 .f32) (x3 : Vec F S1x256 .f32)
    (x4 : Vec F S256x256 .f32) (x5 : Vec F S1x256 .f32) (xs : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 x1 xs x4 x5)
            ∗ owns (c : Thread nD τ) arg8 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0 hf1 hf2 hf3 hf4 hf5 hf8
  sl_exec (disch := exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists f8; isplitr; · ipureintro; rfl
    iexact H8

end Cert.KernelIdeal.Layers

end
-- ==== Proof.KernelIdeal.Layer1Data.lean ====
/-
  The first layer's pallas_call as a pipeline over 25 grid points, from buffer contents `V` at its entry.
  Windows 0, 2, 3, 4, 5 (x, W1, b1 as a row, W2, b2 as a row) have one block, the whole array; window 1 is the band of
  400 rows of adj at the point; window 6 is the output band at the point.
  What the kernel keeps in its scratch is ONE value from the first point on: the hidden layer  bf16 (x · W1 + b1)
  computed from the blocks of windows 0, 2, 3 at the first point. So the output band at EVERY point is the same function
  of that point's adj band, this hidden layer, W2 and b2 — nothing accumulates from point to point.
  The invariant between points: before the first point every scoped buffer is at anything; after it, the scratch holds
  the hidden layer and the other scoped buffers are at anything.
-/
import proofs.«100465_g12077448036904_cont_main3_85_6_alg».proof.Proof.KernelIdeal.Layer1Body

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pallas_call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev first0 : Fin cfg0.N := ⟨0, by rw [show cfg0.N = 25 from N_0]; omega⟩

/-- The hidden layer the kernel keeps in its scratch: computed at the first point from x, W1 and b1. -/
def hid0 (c : Dev nD) : Vec F S10000x256 .bf16 :=
  k0_pay1 (iblk0 V c 0 first0) (iblk0 V c 2 first0) (iblk0 V c 3 first0)

/-- An input window's current staging buffer holds the window's block at every point, fetched there or not: where
    it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The condition, decided over the grid -/

/-- The body's test holds at the first point only. -/
theorem hcond0 : ∀ t : Fin cfg0.N, cond0 (grid0.coords t) ↔ t.val = 0 :=
  (by decide +kernel : ∀ t : Fin grid0.N, cond0 (grid0.coords t) ↔ t.val = 0)

/-! ## The invariant between points -/

/-- The scratch the kernel keeps. -/
abbrev scr0 : Memref sig .tc .vmem S10000x256 .bf16 := Memref.whole cc0_scratch0

/-- The core's other scoped buffers that this pallas_call does not stage (the second layer's), each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant (every scoped buffer no window stages at anything, the generator register at some state) with the
    scratch named as a memref. -/
theorem PhiA0_eq (c : Dev nD) :
    (Pipeline.ΦA spec0 c : sProp 𝕄)
      = iprop(((∃ d, owns (c : Thread nD τ) scr0 fullShare d) ∗ rest0 c) ∗ (∃ r, prngReg c r)) := by
  unfold Pipeline.ΦA; rw [scopedRest0_eq]; simp only [scr0, owns_whole]; try rfl

/-- The invariant before position `n`: the class's before the first point; afterwards the scratch at the hidden layer. -/
def Phi0 (c : Dev nD) : ℕ → sProp 𝕄
  | 0 => Pipeline.ΦA spec0 c
  | _ + 1 => iprop((owns (c : Thread nD τ) scr0 fullShare (hid0 V c) ∗ rest0 c) ∗ (∃ r, prngReg c r))

/-- After any point the invariant gives the class's back: the scratch's contents are forgotten. -/
theorem Phi0_out (c : Dev nD) (n : ℕ) : Phi0 V c (n + 1) ⊢ Pipeline.ΦA spec0 c := by
  rw [PhiA0_eq]
  show iprop((owns (c : Thread nD τ) scr0 fullShare (hid0 V c) ∗ rest0 c) ∗ (∃ r, prngReg c r)) ⊢ _
  iintro ⟨⟨HS, HR⟩, Hg⟩
  isplitl [HS HR]
  · isplitl [HS]
    · iexists _; iexact HS
    iexact HR
  iexact Hg

/-! ## The proof data -/

/-- The arrays as the pallas_call finds them; after the body at point `t` each input's buffer at its block and the output's
    at the payload of that point's adj band, the hidden layer, W2 and b2; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (iblk0 V c 1 t) (hid0 V c) (iblk0 V c 4 t) (iblk0 V c 5 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay2 (iblk0 V c 1 t) (hid0 V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The invariant at a point's start and end, restated at the point's number. -/
theorem Phi0_castSucc (c : Dev nD) (t : Fin cfg0.N) : (dat0 V c).Φ t.castSucc = Phi0 V c t.val := by
  dsimp only [dat0]; simp only [Fin.coe_castSucc]
theorem Phi0_succ (c : Dev nD) (t : Fin cfg0.N) : (dat0 V c).Φ t.succ = Phi0 V c (t.val + 1) := by
  dsimp only [dat0]; simp only [Fin.val_succ]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point. At the first point the invariant hands the scratch over at anything and takes it back at the
    hidden layer; at a later point it hands it over at the hidden layer and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, Phi0_castSucc, Phi0_succ]
  by_cases hz : t.val = 0
  · obtain rfl : t = first0 := Fin.ext hz
    rw [show Phi0 V c (first0 : Fin cfg0.N).val = Pipeline.ΦA spec0 c from rfl, PhiA0_eq]
    show _ ⊢ wp _ _ _ _ (fun _ => iprop(iprop((owns (c : Thread nD τ) scr0 fullShare (hid0 V c) ∗ rest0 c) ∗ (∃ r, prngReg c r)) ∗ _))
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (layer1_first c Set.univ (grid0.coords first0) _ _ _ _ _ _ _ _ _ _ _ _ _ _ _ _ ((hcond0 first0).mpr rfl)
      (iblk0 V c 0 first0) (iblk0 V c 1 first0) (iblk0 V c 2 first0) (iblk0 V c 3 first0) (iblk0 V c 4 first0) (iblk0 V c 5 first0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero hz
    rw [hn]
    show iprop(iprop((owns (c : Thread nD τ) scr0 fullShare (hid0 V c) ∗ rest0 c) ∗ (∃ r, prngReg c r)) ∗ _) ⊢ wp _ _ _ _ (fun _ => iprop(iprop((owns (c : Thread nD τ) scr0 fullShare (hid0 V c) ∗ rest0 c) ∗ (∃ r, prngReg c r)) ∗ _))
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (layer1_later c Set.univ (grid0.coords t) _ _ _ _ _ _ _ _ _ _ _ _ _ _ _ _ (fun h => hz ((hcond0 t).mp h))
      (iblk0 V c 0 t) (iblk0 V c 1 t) (iblk0 V c 2 t) (iblk0 V c 3 t) (iblk0 V c 4 t) (iblk0 V c 5 t) (hid0 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layers

end
-- ==== Proof.KernelIdeal.Layer2Body.lean ====
/-
  The second layer's kernel body, run at one grid point on whole staging buffers.
  Its operands: a band of 400 rows of adj, the first layer's result h2 (whole), the output band, and a scratch buffer
  of the size of h2 kept from point to point.
  At the FIRST grid point the body stores  bf16 (h2)  into the scratch; at every point it then stores
  relu (band · scratch)  into the output band.
-/
import proofs.«100465_g12077448036904_cont_main3_85_6_alg».proof.Proof.KernelIdeal.Basics

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second layer's body tests whether the grid coordinate is zero. -/
abbrev cond1 (i : grid1.Coords) : Prop := (Scalar.cmpi .ne (Scalar.extui (Scalar.cmpi .eq (BitVec.ofNat 32 (i 0).val) 0#32)) 0#32) = 1#1

set_option maxHeartbeats 2000000 in
/-- At a point whose coordinate is zero: the scratch ends at the rounded copy of h2, the output band at its payload
    of the adj band and that copy. -/
theorem layer2_first (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S10000x256 .bf16) (harg4 : arg4.IsWhole)
    (hc : cond1 i)
    (x0 : Vec F S400x10000 .f32) (x1 : Vec F S10000x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 (k1_pay1 x1))
            ∗ owns (c : Thread nD τ) arg4 fullShare (k1_pay1 x1)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%d3, %f3, -, H3⟩, ⟨%d4, %f4, -, H4⟩, Hk⟩
  subst hf0 hf1
  sl_exec (disch := exact hc)
  sl_step
  iapply Hk
  isplitl [H0]; · iexists f0; isplitr; · ipureintro; rfl
                  iexact H0
  isplitl [H1]; · iexists f1; isplitr; · ipureintro; rfl
                  iexact H1
  isplitl [H3]
  · iexists _; isplitr
    swap; · iexact H3
    ipureintro
    sl_unfold_run_names
    rw [read_store_whole _ _ zero_off, View.readCov_unit_zero _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists _; isplitr
    swap; · iexact H4
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]

set_option maxHeartbeats 2000000 in
/-- At a point whose coordinate is not zero: the scratch, at `xs`, is read and left as it is, and the output band
    ends at its payload of the adj band and `xs`. -/
theorem layer2_later (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S10000x256 .bf16) (harg4 : arg4.IsWhole)
    (hc : ¬cond1 i)
    (x0 : Vec F S400x10000 .f32) (x1 : Vec F S10000x256 .f32) (xs : Vec F S10000x256 .bf16) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay2 x0 xs)
            ∗ owns (c : Thread nD τ) arg4 fullShare xs) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%d3, %f3, -, H3⟩, ⟨%f4, %hf4, H4⟩, Hk⟩
  subst hf0 hf1 hf4
  sl_exec (disch := exact hc)
  sl_step
  iapply Hk
  isplitl [H0]; · iexists f0; isplitr; · ipureintro; rfl
                  iexact H0
  isplitl [H1]; · iexists f1; isplitr; · ipureintro; rfl
                  iexact H1
  isplitl [H3]
  · iexists _; isplitr
    swap; · iexact H3
    ipureintro
    sl_unfold_run_names
    rw [read_store_whole _ _ zero_off]
    simp only [View.readAt_eq_ld, View.ld_unit_zero (S := S400x10000) zero_off, View.ld_unit_zero (S := S10000x256) zero_off, View.ld_unit_zero (S := S256x256) zero_off, View.ld_unit_zero (S := S1x256) zero_off]
  · iexists f4; isplitr; · ipureintro; rfl
    iexact H4

end Cert.KernelIdeal.Layers

end
-- ==== Proof.KernelIdeal.Layer2Data.lean ====
/-
  The second layer's pallas_call as a pipeline over 25 grid points, from buffer contents `V` at its entry.
  Window 0 is the band of 400 rows of adj at the point; window 1 the first layer's result, one block, the whole array;
  window 2 the output band at the point.
  The kernel's scratch holds ONE value from the first point on: the rounded copy  bf16 (h2)  of window 1's block at the
  first point; the output band at every point is  relu (band · that copy).
-/
import proofs.«100465_g12077448036904_cont_main3_85_6_alg».proof.Proof.KernelIdeal.Layer2Body

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pallas_call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev first1 : Fin cfg1.N := ⟨0, by rw [show cfg1.N = 25 from N_1]; omega⟩

/-- What the kernel keeps in its scratch: the rounded copy of the first layer's result. -/
def hid1 (c : Dev nD) : Vec F S10000x256 .bf16 := k1_pay1 (iblk1 V c 1 first1)

/-- An input window's current staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The condition, decided over the grid -/

theorem hcond1 : ∀ t : Fin cfg1.N, cond1 (grid1.coords t) ↔ t.val = 0 :=
  (by decide +kernel : ∀ t : Fin grid1.N, cond1 (grid1.coords t) ↔ t.val = 0)

/-! ## The invariant between points -/

/-- The scratch the kernel keeps. -/
abbrev scr1 : Memref sig .tc .vmem S10000x256 .bf16 := Memref.whole cc1_scratch0

/-- The core's other scoped buffers that this pallas_call does not stage (the first layer's), each at anything. -/
abbrev rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f))

/-- The class invariant hands out the scratch, named as a memref, beside the other scoped buffers -/
theorem PhiA1_split (c : Dev nD) :
    (Pipeline.ΦA spec1 c : sProp 𝕄)
      ⊢ iprop(((∃ d, owns (c : Thread nD τ) scr1 fullShare d) ∗ rest1 c) ∗ (∃ r, prngReg c r)) := by
  unfold Pipeline.ΦA; rw [scopedRest1_eq]; simp only [scr1, owns_whole]
  iintro ⟨⟨A0, A1, A2, A3, A4, A5, A6, A7, A8, A9, HS⟩, Hg⟩
  isplitr [Hg]
  · isplitl [HS]; · iexact HS
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

/-- and takes it back. -/
theorem PhiA1_join (c : Dev nD) :
    iprop(((∃ d, owns (c : Thread nD τ) scr1 fullShare d) ∗ rest1 c) ∗ (∃ r, prngReg c r))
      ⊢ (Pipeline.ΦA spec1 c : sProp 𝕄) := by
  unfold Pipeline.ΦA; rw [scopedRest1_eq]; simp only [scr1, owns_whole]
  iintro ⟨⟨HS, A0, A1, A2, A3, A4, A5, A6, A7, A8, A9⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-- The invariant before position `n`: the class's before the first point; afterwards the scratch at the rounded copy. -/
def Phi1 (c : Dev nD) : ℕ → sProp 𝕄
  | 0 => Pipeline.ΦA spec1 c
  | _ + 1 => iprop((owns (c : Thread nD τ) scr1 fullShare (hid1 V c) ∗ rest1 c) ∗ (∃ r, prngReg c r))

/-- After any point the invariant gives the class's back: the scratch's contents are forgotten. -/
theorem Phi1_out (c : Dev nD) (n : ℕ) : Phi1 V c (n + 1) ⊢ Pipeline.ΦA spec1 c := by
  refine .trans ?_ (PhiA1_join c)
  show iprop((owns (c : Thread nD τ) scr1 fullShare (hid1 V c) ∗ rest1 c) ∗ (∃ r, prngReg c r)) ⊢ _
  iintro ⟨⟨HS, HR⟩, Hg⟩
  isplitl [HS HR]
  · isplitl [HS]
    · iexists _; iexact HS
    iexact HR
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (iblk1 V c 0 t) (hid1 V c)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay2 (iblk1 V c 0 t) (hid1 V c) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := by
  dsimp only [dat1]; simp only [Fin.val_succ]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any point: the scratch handed over at anything at the first point and taken back at the rounded copy;
    handed over at the rounded copy at a later point and taken back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2, Phi1_castSucc, Phi1_succ]
  by_cases hz : t.val = 0
  · obtain rfl : t = first1 := Fin.ext hz
    rw [show Phi1 V c (first1 : Fin cfg1.N).val = Pipeline.ΦA spec1 c from rfl]
    show _ ⊢ wp _ _ _ _ (fun _ => iprop(iprop((owns (c : Thread nD τ) scr1 fullShare (hid1 V c) ∗ rest1 c) ∗ (∃ r, prngReg c r)) ∗ _))
    iintro ⟨HΦ, Ho, ⟨%d0, H0⟩, ⟨%d1, H1⟩, ⟨%d2, H2⟩⟩
    ihave HΦ' := (PhiA1_split c) $$ HΦ
    icases HΦ' with ⟨⟨⟨%ds, HS⟩, HR⟩, Hg⟩
    iapply (layer2_first c Set.univ (grid1.coords first1) _ _ _ _ _ _ _ _ ((hcond1 first1).mpr rfl)
      (iblk1 V c 0 first1) (iblk1 V c 1 first1) _)
    isplitl [H0]; · iexact H0
    isplitl [H1]; · iexact H1
    isplitl [H2]; · iexists _; iexact H2
    isplitl [HS]; · iexists _; iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · obtain ⟨n, hn⟩ : ∃ n, t.val = n + 1 := Nat.exists_eq_succ_of_ne_zero hz
    rw [hn]
    show iprop(iprop((owns (c : Thread nD τ) scr1 fullShare (hid1 V c) ∗ rest1 c) ∗ (∃ r, prngReg c r)) ∗ _) ⊢ wp _ _ _ _ (fun _ => iprop(iprop((owns (c : Thread nD τ) scr1 fullShare (hid1 V c) ∗ rest1 c) ∗ (∃ r, prngReg c r)) ∗ _))
    iintro ⟨⟨⟨HS, HR⟩, Hg⟩, Ho, ⟨%d0, H0⟩, ⟨%d1, H1⟩, ⟨%d2, H2⟩⟩
    iapply (layer2_later c Set.univ (grid1.coords t) _ _ _ _ _ _ _ _ (fun h => hz ((hcond1 t).mp h))
      (iblk1 V c 0 t) (iblk1 V c 1 t) (hid1 V c) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layers

end
-- ==== Proof.KernelIdeal.Run.lean ====
/-
  The whole program's run: the two reshapes of b1 and b2 into rows, the first layer's pallas_call, the second layer's.
  The contents of the core's unscoped buffers are followed through the three items: `W0` at launch, `W1` after the
  reshapes, `W2` after the first pallas_call (its arrays at what its pipeline leaves: every input as it was, the result
  at its 25 bands written back), `W3` after the second. Every weakly fair execution terminates, and the final memory
  holds `W3` at every unscoped buffer. From that: every argument array ends as launched (no item writes one), and the
  result is the second pipeline's output array.
-/
import proofs.«100465_g12077448036904_cont_main3_85_6_alg».proof.Proof.KernelIdeal.Layer1Data
import proofs.«100465_g12077448036904_cont_main3_85_6_alg».proof.Proof.KernelIdeal.Layer2Data

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary -/

/-- Core `c`'s buffers at launch. -/
abbrev W0 : Dev nD → Valuation τ sig (Elt F) := fun c b => (s₀ m ρ).mem ((c : Dev nD), b)
/-- After the two reshapes (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No item writes an argument -/

/-- The reshapes write the two row buffers only. -/
theorem W1_of_arg (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide) (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of_arg m ρ c main_arg1 (by decide) (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of_arg m ρ c main_arg2 (by decide) (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide) (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := W1_of_arg m ρ c main_arg4 (by decide) (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_arg m ρ c main_arg5 (by decide) (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The pallas_calls as segments -/

set_option backward.isDefEq.respectTransparency.types false in
/-- The first layer's pallas_call: entered from every unscoped buffer at `W1`, left at `W2`. Its arrays are split out
    of the unscoped buffers and put back at the exit contents; the generator register goes into the invariant and comes
    back; the scratch's contents are forgotten at the exit; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_out (V1 m ρ) c 24).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's pallas_call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_out (V2 m ρ) c 24).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    the final memory holds `W3` at every unscoped buffer of the core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The run with the result named: the result array ends at what the second pipeline leaves in its output array, and
    every argument as launched. -/
theorem run_result : θ_run defs (onTc (τ := τ) (main (F := F))) ⟨m, fun _ => 0, ρ⟩ (fun r => ∀ c : Dev nD,
      r.2.mem ((c.tc : Thread nD τ).loc main_v3) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Layers

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«100465_g12077448036904_cont_main3_85_6_alg».proof.Proof.LibMatmul
import proofs.«100465_g12077448036904_cont_main3_85_6_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.IdealSums.lean ====
/-
  The two kernels' payloads and the reference's stages at the ideal values, read at one index (p, q).

  With floats read as extended reals, a change of float format is the identity and a matrix product into a zero
  accumulator is the plain sum over the contracted axis. So, writing  hid  for the hidden layer and  ·  for products,
    the first layer's scratch payload      at (p, q) is  Σ_n x(p, n) · W1(n, q) + b1(q),
    the first layer's output-band payload  at (r, q) is  Σ_k max(Σ_j band(r, j) · hid(j, k), 0) · W2(k, q) + b2(q),
    the second layer's scratch payload     is its operand, unchanged,
    the second layer's output-band payload at (r, q) is  max(Σ_j band(r, j) · h(j, q), 0),
  and the reference's four stages (hidden layer, first relu, second affine layer, second relu) read the same way over
  the whole arrays. The zero of each `max` is the same float word on both sides and is never evaluated.
-/
import proofs.«100465_g12077448036904_cont_main3_85_6_alg».proof.Proof.Gen.KernelIdeal.Skeleton
import proofs.«100465_g12077448036904_cont_main3_85_6_alg».proof.Proof.Gen.ReferenceIdeal.Read
import proofs.«100465_g12077448036904_cont_main3_85_6_alg».proof.Proof.LibStdMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Bridge

open Idealize.ShloMosaic Idealize.ShloMosaic.ValueIdx
open Cert.KernelIdeal Cert.KernelIdeal.Gen

/-! ## The kernels' payloads -/

/-- The hidden layer at (p, q). -/
theorem pay_hidden_apply (x : Vec Ideal S10000x256 .f32) (w1 : Vec Ideal S256x256 .f32) (b1r : Vec Ideal S1x256 .f32)
    (p : Fin 10000) (q : Fin 256) :
    k0_pay1 (F := Ideal) x w1 b1r (ix2 p q) = (∑ n : Fin 256, x (ix2 p n) * w1 (ix2 n q)) + b1r (ix2 (0 : Fin 1) q) := by
  unfold k0_pay1
  rw [shapeCast_self]
  refine (truncf_apply (ψ := FTy.bf16) _ bitsLt_bf16_f32 _).trans ?_
  refine (addf_apply _ _ _).trans ?_
  refine congrArg₂ (· + ·) ?_ ?_
  · exact Cert.Lib.StdMatmul.matmul_std_ix2 dot_S10000x256_S256x256_S10000x256_1_0_0_1_n_n none rfl rfl rfl rfl rfl rfl x w1 p q
  · refine (broadcastTo_1b_ab_apply _ _ p q).trans ?_
    rw [shapeCast_self]

/-- The float word of the two relus' zero, at the ideal values: never evaluated. -/
abbrev zero32 : Ideal .f32 := FloatOps.ofBits .f32 0x00000000#32

/-- The first layer's output band at (r, q). -/
theorem pay_layer1_apply (band : Vec Ideal S400x10000 .f32) (hid : Vec Ideal S10000x256 .bf16) (w2 : Vec Ideal S256x256 .f32)
    (b2r : Vec Ideal S1x256 .f32) (r : Fin 400) (q : Fin 256) :
    k0_pay2 (F := Ideal) band hid w2 b2r (ix2 r q)
      = (∑ k : Fin 256, max (∑ j : Fin 10000, band (ix2 r j) * hid (ix2 j k)) zero32 * w2 (ix2 k q)) + b2r (ix2 (0 : Fin 1) q) := by
  unfold k0_pay2
  refine (addf_apply _ _ _).trans ?_
  refine congrArg₂ (· + ·) ?_ ?_
  · refine (Cert.Lib.StdMatmul.matmul_std_ix2 dot_S400x256_S256x256_S400x256_1_0_0_1_n_n none rfl rfl rfl rfl rfl rfl _ w2 r q).trans ?_
    refine Finset.sum_congr rfl fun k _ => congrArg (· * w2 (ix2 k q)) ?_
    refine (maximumf_apply _ _ _).trans ?_
    refine congrArg₂ max ?_ rfl
    exact Cert.Lib.StdMatmul.matmul_std_ix2 dot_S400x10000_S10000x256_S400x256_1_0_0_1_n_n none rfl rfl rfl rfl rfl rfl _ hid r k
  · refine (broadcastTo_1b_ab_apply _ _ r q).trans ?_
    rw [shapeCast_self]

/-- The second layer's scratch payload is its operand: a change of format only. -/
theorem pay_copy_apply (h : Vec Ideal S10000x256 .f32) (i : S10000x256.Idx) : k1_pay1 (F := Ideal) h i = h i := by
  unfold k1_pay1
  rw [shapeCast_self]
  refine (truncf_apply (ψ := FTy.bf16) _ bitsLt_bf16_f32 _).trans ?_
  rw [shapeCast_self]

/-- The second layer's output band at (r, q). -/
theorem pay_layer2_apply (band : Vec Ideal S400x10000 .f32) (hs : Vec Ideal S10000x256 .bf16) (r : Fin 400) (q : Fin 256) :
    k1_pay2 (F := Ideal) band hs (ix2 r q) = max (∑ j : Fin 10000, band (ix2 r j) * hs (ix2 j q)) zero32 := by
  unfold k1_pay2
  refine (maximumf_apply _ _ _).trans ?_
  refine congrArg₂ max ?_ rfl
  exact Cert.Lib.StdMatmul.matmul_std_ix2 dot_S400x10000_S10000x256_S400x256_1_0_0_1_n_n none rfl rfl rfl rfl rfl rfl _ hs r q

end Cert.Bridge

/-! ## The reference's stages -/

namespace Cert.Bridge.Ref

open Idealize.ShloMosaic Idealize.ShloMosaic.ValueIdx
open Cert.ReferenceIdeal Cert.ReferenceIdeal.Gen Cert.ReferenceIdeal.Read

variable (x : (⟨S10000x256, .f32⟩ : BufTy).Contents (Elt Ideal)) (adj : (⟨S10000x10000, .f32⟩ : BufTy).Contents (Elt Ideal))
  (w1 : (⟨S256x256, .f32⟩ : BufTy).Contents (Elt Ideal)) (b1 : (⟨S256, .f32⟩ : BufTy).Contents (Elt Ideal))
  (w2 : (⟨S256x256, .f32⟩ : BufTy).Contents (Elt Ideal)) (b2 : (⟨S256, .f32⟩ : BufTy).Contents (Elt Ideal))

/-- The hidden layer  x · W1 + b1  at (p, q). -/
theorem hidden_apply (p : Fin 10000) (q : Fin 256) :
    val_main_v3 (F := Ideal) x w1 b1 (ix2 p q) = (∑ n : Fin 256, x (ix2 p n) * w1 (ix2 n q)) + b1 (ix1 q) := by
  rw [val_main_v3_apply, val_main_v0_apply, val_main_v2_apply, val_main_v1_apply]
  refine congrArg₂ (· + ·) (Finset.sum_congr rfl fun n _ => ?_) ?_
  · rw [(show lidx_main_v0 (ix2 p q) n = ix2 p n from funext fun a => Fin.ext (by match a with | ⟨0, _⟩ => rfl | ⟨1, _⟩ => rfl)), (show ridx_main_v0 (ix2 p q) n = ix2 n q from funext fun a => Fin.ext (by match a with | ⟨0, _⟩ => rfl | ⟨1, _⟩ => rfl))]
  · exact congrArg b1 (funext fun a => Fin.ext (by match a with | ⟨0, _⟩ => rfl))

/-- The first relu  max(adj · hidden, 0)  at (p, k). -/
theorem relu1_apply (p : Fin 10000) (k : Fin 256) :
    val_main_v6 (F := Ideal) x adj w1 b1 (ix2 p k)
      = max (∑ j : Fin 10000, adj (ix2 p j) * val_main_v3 (F := Ideal) x w1 b1 (ix2 j k)) Cert.Bridge.zero32 := by
  rw [val_main_v6_apply, val_main_v4_apply, val_main_v5_apply, val_main_cst_apply]
  refine congrArg₂ max (Finset.sum_congr rfl fun j _ => ?_) rfl
  rw [(show lidx_main_v4 (ix2 p k) j = ix2 p j from funext fun a => Fin.ext (by match a with | ⟨0, _⟩ => rfl | ⟨1, _⟩ => rfl)), (show ridx_main_v4 (ix2 p k) j = ix2 j k from funext fun a => Fin.ext (by match a with | ⟨0, _⟩ => rfl | ⟨1, _⟩ => rfl))]

/-- The second affine layer  relu1 · W2 + b2  at (p, q). -/
theorem affine2_apply (p : Fin 10000) (q : Fin 256) :
    val_main_v10 (F := Ideal) x adj w1 b1 w2 b2 (ix2 p q)
      = (∑ k : Fin 256, val_main_v6 (F := Ideal) x adj w1 b1 (ix2 p k) * w2 (ix2 k q)) + b2 (ix1 q) := by
  rw [val_main_v10_apply, val_main_v7_apply, val_main_v9_apply, val_main_v8_apply]
  refine congrArg₂ (· + ·) (Finset.sum_congr rfl fun k _ => ?_) ?_
  · rw [(show lidx_main_v7 (ix2 p q) k = ix2 p k from funext fun a => Fin.ext (by match a with | ⟨0, _⟩ => rfl | ⟨1, _⟩ => rfl)), (show ridx_main_v7 (ix2 p q) k = ix2 k q from funext fun a => Fin.ext (by match a with | ⟨0, _⟩ => rfl | ⟨1, _⟩ => rfl))]
  · exact congrArg b2 (funext fun a => Fin.ext (by match a with | ⟨0, _⟩ => rfl))

/-- The result  max(adj · affine2, 0)  at (p, q). -/
theorem relu2_apply (p : Fin 10000) (q : Fin 256) :
    val_main_v13 (F := Ideal) x adj w1 b1 w2 b2 (ix2 p q)
      = max (∑ j : Fin 10000, adj (ix2 p j) * val_main_v10 (F := Ideal) x adj w1 b1 w2 b2 (ix2 j q)) Cert.Bridge.zero32 := by
  rw [val_main_v13_apply, val_main_v11_apply, val_main_v12_apply, val_main_cst_0_apply]
  refine congrArg₂ max (Finset.sum_congr rfl fun j _ => ?_) rfl
  rw [(show lidx_main_v11 (ix2 p q) j = ix2 p j from funext fun a => Fin.ext (by match a with | ⟨0, _⟩ => rfl | ⟨1, _⟩ => rfl)), (show ridx_main_v11 (ix2 p q) j = ix2 j q from funext fun a => Fin.ext (by match a with | ⟨0, _⟩ => rfl | ⟨1, _⟩ => rfl))]

end Cert.Bridge.Ref

end
-- ==== Proof.IdealLayer1.lean ====
/-
  The first layer's result array at the ideal values.
  Point t of the grid writes back the band of rows 400·t … 400·t + 399 of the result. The band's entry (r, q) is the
  output payload of that point's adj band — rows 400·t + r of adj —, the hidden layer, W2 and b2; read as sums it is
  the reference's second affine stage at (400·t + r, q), because the hidden layer the kernel keeps is the reference's
  first stage, entry by entry. The 25 bands cover the 10000 rows, so the whole array is that stage.
-/
import proofs.«100465_g12077448036904_cont_main3_85_6_alg».proof.Proof.KernelIdeal.Layer1Data
import proofs.«100465_g12077448036904_cont_main3_85_6_alg».proof.Proof.IdealSums

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## Where each window's block sits -/

/-- The printed index maps, decided over the grid: the adj band and the output band move with the point along the rows;
    every other window stays at its one block. -/
theorem idx_facts0 : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- x's one block is x. -/
theorem blk_x (c : Dev nD) (t : Fin cfg0.N) (p : Fin 10000) (q : Fin 256) :
    iblk0 V c 0 t (ix2 p q) = V c main_arg0 (ix2 p q) := by
  show V c main_arg0 (((cfg0.win 0).blk t).view.emb (ix2 p q)) = V c main_arg0 (ix2 p q)
  refine congrArg _ (funext fun a => Fin.ext ?_)
  match a with
  | ⟨0, _⟩ => show win0_0.index t (0 : Fin 2) * 10000 + 1 * p.val = _; rw [(idx_facts0 t).1.1]; show _ = p.val; omega
  | ⟨1, _⟩ => show win0_0.index t (1 : Fin 2) * 256 + 1 * q.val = _; rw [(idx_facts0 t).1.2]; show _ = q.val; omega
/-- W1's one block is W1. -/
theorem blk_w1 (c : Dev nD) (t : Fin cfg0.N) (p : Fin 256) (q : Fin 256) :
    iblk0 V c 2 t (ix2 p q) = V c main_arg2 (ix2 p q) := by
  show V c main_arg2 (((cfg0.win 2).blk t).view.emb (ix2 p q)) = V c main_arg2 (ix2 p q)
  refine congrArg _ (funext fun a => Fin.ext ?_)
  match a with
  | ⟨0, _⟩ => show win0_2.index t (0 : Fin 2) * 256 + 1 * p.val = _; rw [(idx_facts0 t).2.2.1.1]; show _ = p.val; omega
  | ⟨1, _⟩ => show win0_2.index t (1 : Fin 2) * 256 + 1 * q.val = _; rw [(idx_facts0 t).2.2.1.2]; show _ = q.val; omega
/-- The row of b1: its one block is the row. -/
theorem blk_b1 (c : Dev nD) (t : Fin cfg0.N) (p : Fin 1) (q : Fin 256) :
    iblk0 V c 3 t (ix2 p q) = V c main_v0 (ix2 p q) := by
  show V c main_v0 (((cfg0.win 3).blk t).view.emb (ix2 p q)) = V c main_v0 (ix2 p q)
  refine congrArg _ (funext fun a => Fin.ext ?_)
  match a with
  | ⟨0, _⟩ => show win0_3.index t (0 : Fin 2) * 1 + 1 * p.val = _; rw [(idx_facts0 t).2.2.2.1.1]; show _ = p.val; omega
  | ⟨1, _⟩ => show win0_3.index t (1 : Fin 2) * 256 + 1 * q.val = _; rw [(idx_facts0 t).2.2.2.1.2]; show _ = q.val; omega
/-- W2's one block is W2. -/
theorem blk_w2 (c : Dev nD) (t : Fin cfg0.N) (p : Fin 256) (q : Fin 256) :
    iblk0 V c 4 t (ix2 p q) = V c main_arg4 (ix2 p q) := by
  show V c main_arg4 (((cfg0.win 4).blk t).view.emb (ix2 p q)) = V c main_arg4 (ix2 p q)
  refine congrArg _ (funext fun a => Fin.ext ?_)
  match a with
  | ⟨0, _⟩ => show win0_4.index t (0 : Fin 2) * 256 + 1 * p.val = _; rw [(idx_facts0 t).2.2.2.2.1.1]; show _ = p.val; omega
  | ⟨1, _⟩ => show win0_4.index t (1 : Fin 2) * 256 + 1 * q.val = _; rw [(idx_facts0 t).2.2.2.2.1.2]; show _ = q.val; omega
/-- The row of b2: its one block is the row. -/
theorem blk_b2 (c : Dev nD) (t : Fin cfg0.N) (p : Fin 1) (q : Fin 256) :
    iblk0 V c 5 t (ix2 p q) = V c main_v1 (ix2 p q) := by
  show V c main_v1 (((cfg0.win 5).blk t).view.emb (ix2 p q)) = V c main_v1 (ix2 p q)
  refine congrArg _ (funext fun a => Fin.ext ?_)
  match a with
  | ⟨0, _⟩ => show win0_5.index t (0 : Fin 2) * 1 + 1 * p.val = _; rw [(idx_facts0 t).2.2.2.2.2.1.1]; show _ = p.val; omega
  | ⟨1, _⟩ => show win0_5.index t (1 : Fin 2) * 256 + 1 * q.val = _; rw [(idx_facts0 t).2.2.2.2.2.1.2]; show _ = q.val; omega

/-- The adj band at point t: rows 400·t … 400·t + 399 of adj. -/
theorem blk_adj (c : Dev nD) (t : Fin cfg0.N) (r : Fin 400) (j : Fin 10000) (h : t.val * 400 + r.val < 10000) :
    iblk0 V c 1 t (ix2 r j) = V c main_arg1 (ix2 (⟨t.val * 400 + r.val, h⟩ : Fin 10000) j) := by
  show V c main_arg1 (((cfg0.win 1).blk t).view.emb (ix2 r j)) = V c main_arg1 (ix2 (⟨t.val * 400 + r.val, h⟩ : Fin 10000) j)
  refine congrArg _ (funext fun a => Fin.ext ?_)
  match a with
  | ⟨0, _⟩ => show win0_1.index t (0 : Fin 2) * 400 + 1 * r.val = _; rw [(idx_facts0 t).2.1.1]; show _ = t.val * 400 + r.val; omega
  | ⟨1, _⟩ => show win0_1.index t (1 : Fin 2) * 10000 + 1 * j.val = _; rw [(idx_facts0 t).2.1.2]; show _ = j.val; omega

/-! ## The hidden layer the kernel keeps is the reference's first stage -/

/-- What the first layer's result array is claimed to hold: the reference's second affine stage of the arrays as the
    pallas_call finds them, with b1 and b2 the vectors whose rows the pallas_call is handed. -/
def affine2Of (c : Dev nD) (B1 B2 : (⟨Cert.ReferenceIdeal.S256, .f32⟩ : BufTy).Contents (Elt Ideal)) : S10000x256.Idx → Elt Ideal .f32 :=
  Cert.ReferenceIdeal.Read.val_main_v10 (F := Ideal) (V c main_arg0) (V c main_arg1) (V c main_arg2) B1 (V c main_arg4) B2

variable (B1 B2 : (⟨Cert.ReferenceIdeal.S256, .f32⟩ : BufTy).Contents (Elt Ideal))

theorem hid0_apply (c : Dev nD) (hb1 : ∀ q : Fin 256, V c main_v0 (ix2 (0 : Fin 1) q) = B1 (ix1 q)) (j : Fin 10000) (k : Fin 256) :
    hid0 V c (ix2 j k) = Cert.ReferenceIdeal.Read.val_main_v3 (F := Ideal) (V c main_arg0) (V c main_arg2) B1 (ix2 j k) := by
  unfold hid0
  rw [Cert.Bridge.pay_hidden_apply, Cert.Bridge.Ref.hidden_apply]
  refine congrArg₂ (· + ·) (Finset.sum_congr rfl fun n _ => ?_) ?_
  · rw [blk_x, blk_w1]
  · rw [blk_b1, hb1]

/-! ## What a point writes back -/

/-- WHAT POINT t WRITES BACK is band t of the reference's second affine stage. -/
theorem flushed0_eq (c : Dev nD) (hb1 : ∀ q : Fin 256, V c main_v0 (ix2 (0 : Fin 1) q) = B1 (ix1 q))
    (hb2 : ∀ q : Fin 256, V c main_v1 (ix2 (0 : Fin 1) q) = B2 (ix1 q)) (t : Fin cfg0.N) :
    (dat0 V c).flushed 6 t = ((cfg0.win 6).blk t).view.read (Elt Ideal) (affine2Of V c B1 B2) := by
  show (cfg0.win 6).cut (grid0.coords t) ((dat0 V c).after 6 t) = _
  rw [after0_6]
  funext y
  obtain ⟨r, q, rfl⟩ : ∃ (r : Fin 400) (q : Fin 256), y = ix2 r q := ⟨y 0, y 1, eq_ix2 y⟩
  have hN : t.val < 25 := lt_of_lt_of_eq t.isLt (show cfg0.N = 25 from N_0)
  have hrow : t.val * 400 + r.val < 10000 := by have := r.isLt; omega
  show k0_pay2 (F := Ideal) (iblk0 V c 1 t) (hid0 V c) (iblk0 V c 4 t) (iblk0 V c 5 t) (ix2 r q)
    = affine2Of V c B1 B2 (((cfg0.win 6).blk t).view.emb (ix2 r q))
  have hemb : ((cfg0.win 6).blk t).view.emb (ix2 r q) = ix2 (⟨t.val * 400 + r.val, hrow⟩ : Fin 10000) q :=
    funext fun a => Fin.ext (by
      match a with
      | ⟨0, _⟩ => show win0_6.index t (0 : Fin 2) * 400 + 1 * r.val = _; rw [(idx_facts0 t).2.2.2.2.2.2.1]; show _ = t.val * 400 + r.val; omega
      | ⟨1, _⟩ => show win0_6.index t (1 : Fin 2) * 256 + 1 * q.val = _; rw [(idx_facts0 t).2.2.2.2.2.2.2]; show _ = q.val; omega)
  rw [hemb]
  unfold affine2Of
  rw [Cert.Bridge.pay_layer1_apply, Cert.Bridge.Ref.affine2_apply]
  refine congrArg₂ (· + ·) (Finset.sum_congr rfl fun k _ => ?_) ?_
  · rw [Cert.Bridge.Ref.relu1_apply, blk_w2]
    refine congrArg (· * _) (congrArg₂ max (Finset.sum_congr rfl fun j _ => ?_) rfl)
    rw [blk_adj V c t r j hrow, hid0_apply V B1 c hb1 j k]
  · rw [blk_b2, hb2]

/-! ## The bands cover the array -/

theorem mem_blk0 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v2).slice (win0_6.rect t)).set ↔ _
  rw [View.set_slice_whole, Rect.mem_set_unit]
  exact Iff.rfl

/-- Row p lies in the band of point p / 400. -/
theorem cover0 (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  refine ⟨⟨(i 0).val / 400, by rw [show cfg0.N = 25 from N_0]; omega⟩, flush0_6 _, ?_⟩
  rw [mem_blk0]
  intro a
  match a with
  | ⟨0, _⟩ =>
    show win0_6.index _ (0 : Fin 2) * 400 ≤ (i 0).val ∧ (i 0).val < win0_6.index _ (0 : Fin 2) * 400 + 400
    rw [(idx_facts0 _).2.2.2.2.2.2.1]
    show (i 0).val / 400 * 400 ≤ (i 0).val ∧ (i 0).val < (i 0).val / 400 * 400 + 400
    omega
  | ⟨1, _⟩ =>
    show win0_6.index _ (1 : Fin 2) * 256 ≤ (i 1).val ∧ (i 1).val < win0_6.index _ (1 : Fin 2) * 256 + 256
    rw [(idx_facts0 _).2.2.2.2.2.2.2]
    omega

/-- THE RESULT ARRAY of the first layer's pallas_call: the reference's second affine stage. -/
theorem final0 (c : Dev nD) (hb1 : ∀ q : Fin 256, V c main_v0 (ix2 (0 : Fin 1) q) = B1 (ix1 q))
    (hb2 : ∀ q : Fin 256, V c main_v1 (ix2 (0 : Fin 1) q) = B2 (ix1 q)) :
    (dat0 V c).arrAt 6 cfg0.N = affine2Of V c B1 B2 :=
  (dat0 V c).arrAt_eq_of_cover 6 (affine2Of V c B1 B2) (fun t _ => flushed0_eq V B1 B2 c hb1 hb2 t) cover0

end Cert.KernelIdeal.Layers

end
-- ==== Proof.IdealLayer2.lean ====
/-
  The second layer's result array at the ideal values.
  Point t writes back the band of rows 400·t … 400·t + 399. Entry (r, q) of the band is  max(Σ_j band(r, j) · h(j, q), 0)
  with h the rounded copy of the first layer's result the kernel keeps, which at the ideal values IS that result. When
  the first layer's result is the reference's second affine stage, this is the reference's last stage at
  (400·t + r, q); the 25 bands cover the 10000 rows.
-/
import proofs.«100465_g12077448036904_cont_main3_85_6_alg».proof.Proof.KernelIdeal.Layer2Data
import proofs.«100465_g12077448036904_cont_main3_85_6_alg».proof.Proof.IdealSums

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## Where each window's block sits -/

theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

/-- The adj band at point t: rows 400·t … 400·t + 399 of adj. -/
theorem blk_adj1 (c : Dev nD) (t : Fin cfg1.N) (r : Fin 400) (j : Fin 10000) (h : t.val * 400 + r.val < 10000) :
    iblk1 V c 0 t (ix2 r j) = V c main_arg1 (ix2 (⟨t.val * 400 + r.val, h⟩ : Fin 10000) j) := by
  show V c main_arg1 (((cfg1.win 0).blk t).view.emb (ix2 r j)) = V c main_arg1 (ix2 (⟨t.val * 400 + r.val, h⟩ : Fin 10000) j)
  refine congrArg _ (funext fun a => Fin.ext ?_)
  match a with
  | ⟨0, _⟩ => show win1_0.index t (0 : Fin 2) * 400 + 1 * r.val = _; rw [(idx_facts1 t).1.1]; show _ = t.val * 400 + r.val; omega
  | ⟨1, _⟩ => show win1_0.index t (1 : Fin 2) * 10000 + 1 * j.val = _; rw [(idx_facts1 t).1.2]; show _ = j.val; omega

/-- The first layer's result: its one block is the array. -/
theorem blk_h (c : Dev nD) (t : Fin cfg1.N) (p : Fin 10000) (q : Fin 256) :
    iblk1 V c 1 t (ix2 p q) = V c main_v2 (ix2 p q) := by
  show V c main_v2 (((cfg1.win 1).blk t).view.emb (ix2 p q)) = V c main_v2 (ix2 p q)
  refine congrArg _ (funext fun a => Fin.ext ?_)
  match a with
  | ⟨0, _⟩ => show win1_1.index t (0 : Fin 2) * 10000 + 1 * p.val = _; rw [(idx_facts1 t).2.1.1]; show _ = p.val; omega
  | ⟨1, _⟩ => show win1_1.index t (1 : Fin 2) * 256 + 1 * q.val = _; rw [(idx_facts1 t).2.1.2]; show _ = q.val; omega

/-- What the kernel keeps in its scratch is the first layer's result, entry by entry. -/
theorem hid1_apply (c : Dev nD) (j : Fin 10000) (q : Fin 256) : hid1 V c (ix2 j q) = V c main_v2 (ix2 j q) := by
  unfold hid1
  rw [Cert.Bridge.pay_copy_apply, blk_h]

/-! ## What a point writes back -/

variable (X : (⟨Cert.ReferenceIdeal.S10000x256, .f32⟩ : BufTy).Contents (Elt Ideal)) (ADJ : (⟨Cert.ReferenceIdeal.S10000x10000, .f32⟩ : BufTy).Contents (Elt Ideal))
  (W1 : (⟨Cert.ReferenceIdeal.S256x256, .f32⟩ : BufTy).Contents (Elt Ideal)) (B1 : (⟨Cert.ReferenceIdeal.S256, .f32⟩ : BufTy).Contents (Elt Ideal))
  (W2 : (⟨Cert.ReferenceIdeal.S256x256, .f32⟩ : BufTy).Contents (Elt Ideal)) (B2 : (⟨Cert.ReferenceIdeal.S256, .f32⟩ : BufTy).Contents (Elt Ideal))

/-- WHAT POINT t WRITES BACK is band t of the reference's result, when adj is as given and the first layer's result
    is the reference's second affine stage. -/
theorem flushed1_eq (c : Dev nD) (hadj : ∀ i, V c main_arg1 i = ADJ i)
    (hh : ∀ i, V c main_v2 i = Cert.ReferenceIdeal.Read.val_main_v10 (F := Ideal) X ADJ W1 B1 W2 B2 i) (t : Fin cfg1.N) :
    (dat1 V c).flushed 2 t
      = ((cfg1.win 2).blk t).view.read (Elt Ideal) (Cert.ReferenceIdeal.Read.val_main_v13 (F := Ideal) X ADJ W1 B1 W2 B2) := by
  show (cfg1.win 2).cut (grid1.coords t) ((dat1 V c).after 2 t) = _
  rw [after1_2]
  funext y
  obtain ⟨r, q, rfl⟩ : ∃ (r : Fin 400) (q : Fin 256), y = ix2 r q := ⟨y 0, y 1, eq_ix2 y⟩
  have hN : t.val < 25 := lt_of_lt_of_eq t.isLt (show cfg1.N = 25 from N_1)
  have hrow : t.val * 400 + r.val < 10000 := by have := r.isLt; omega
  show k1_pay2 (F := Ideal) (iblk1 V c 0 t) (hid1 V c) (ix2 r q)
    = Cert.ReferenceIdeal.Read.val_main_v13 (F := Ideal) X ADJ W1 B1 W2 B2 (((cfg1.win 2).blk t).view.emb (ix2 r q))
  have hemb : ((cfg1.win 2).blk t).view.emb (ix2 r q) = ix2 (⟨t.val * 400 + r.val, hrow⟩ : Fin 10000) q :=
    funext fun a => Fin.ext (by
      match a with
      | ⟨0, _⟩ => show win1_2.index t (0 : Fin 2) * 400 + 1 * r.val = _; rw [(idx_facts1 t).2.2.1]; show _ = t.val * 400 + r.val; omega
      | ⟨1, _⟩ => show win1_2.index t (1 : Fin 2) * 256 + 1 * q.val = _; rw [(idx_facts1 t).2.2.2]; show _ = q.val; omega)
  rw [hemb, Cert.Bridge.pay_layer2_apply, Cert.Bridge.Ref.relu2_apply]
  refine congrArg₂ max (Finset.sum_congr rfl fun j _ => ?_) rfl
  rw [blk_adj1 V c t r j hrow, hid1_apply V c j q, hadj, hh]

/-! ## The bands cover the array -/

theorem mem_blk1 (t : Fin cfg1.N) (i : S10000x256.Idx) :
    i ∈ ((cfg1.win 2).blk t).view.set ↔ ∀ a : Fin 2, win1_2.index t a * S400x256.size a ≤ (i a).val ∧ (i a).val < win1_2.index t a * S400x256.size a + S400x256.size a := by
  show i ∈ ((View.whole main_v3).slice (win1_2.rect t)).set ↔ _
  rw [View.set_slice_whole, Rect.mem_set_unit]
  exact Iff.rfl

theorem cover1 (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  refine ⟨⟨(i 0).val / 400, by rw [show cfg1.N = 25 from N_1]; omega⟩, flush1_2 _, ?_⟩
  rw [mem_blk1]
  intro a
  match a with
  | ⟨0, _⟩ =>
    show win1_2.index _ (0 : Fin 2) * 400 ≤ (i 0).val ∧ (i 0).val < win1_2.index _ (0 : Fin 2) * 400 + 400
    rw [(idx_facts1 _).2.2.1]
    show (i 0).val / 400 * 400 ≤ (i 0).val ∧ (i 0).val < (i 0).val / 400 * 400 + 400
    omega
  | ⟨1, _⟩ =>
    show win1_2.index _ (1 : Fin 2) * 256 ≤ (i 1).val ∧ (i 1).val < win1_2.index _ (1 : Fin 2) * 256 + 256
    rw [(idx_facts1 _).2.2.2]
    omega

/-- THE RESULT ARRAY of the second layer's pallas_call: the reference's result. -/
theorem final1 (c : Dev nD) (hadj : ∀ i, V c main_arg1 i = ADJ i)
    (hh : ∀ i, V c main_v2 i = Cert.ReferenceIdeal.Read.val_main_v10 (F := Ideal) X ADJ W1 B1 W2 B2 i) :
    (dat1 V c).arrAt 2 cfg1.N = Cert.ReferenceIdeal.Read.val_main_v13 (F := Ideal) X ADJ W1 B1 W2 B2 :=
  (dat1 V c).arrAt_eq_of_cover 2 _ (fun t _ => flushed1_eq V X ADJ W1 B1 W2 B2 c hadj hh t) cover1

end Cert.KernelIdeal.Layers

end
-- ==== Proof.IdealResult.lean ====
/-
  The idealized kernel's result as a function of its arguments.
  The first pallas_call is entered after the two reshapes: its arguments are as launched, and the two rows it is handed
  are b1 and b2 laid out as one row. So its result is the reference's second affine stage of the launch arrays. The second
  pallas_call finds adj as launched and that result, so its result — the program's — is the reference's last stage of the
  launch arrays.
-/
import proofs.«100465_g12077448036904_cont_main3_85_6_alg».proof.Proof.KernelIdeal.Run
import proofs.«100465_g12077448036904_cont_main3_85_6_alg».proof.Proof.IdealLayer1
import proofs.«100465_g12077448036904_cont_main3_85_6_alg».proof.Proof.IdealLayer2
import Idealize.ShloMosaic.Lib.StableHlo.Run
import Idealize.ShloMosaic.Lib.ValueLayout

set_option maxRecDepth 16384

noncomputable section

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- After the reshapes every buffer but the two rows is as launched. -/
theorem V1_arg (c : Dev nD) (b : Ref sig .tc) (h0 : b ≠ main_v0) (h1 : b ≠ main_v1) :
    V1 m ρ c b = m ((c : Thread nD τ).loc b) := (W1_of_arg m ρ c b h0 h1).trans rfl

/-- The first row is b1 laid out as one row. -/
theorem V1_b1row (c : Dev nD) (q : Fin 256) :
    V1 m ρ c main_v0 (ix2 (0 : Fin 1) q) = (m ((c : Thread nD τ).loc main_arg3)) (ix1 q) := by
  have e : (V1 m ρ c main_v0 : S1x256.Idx → Elt Ideal .f32)
      = shapeCast S1x256 (m ((c : Thread nD τ).loc main_arg3)) shapeCasts_S256_S1x256 := by
    show StableHlo.after hostOps0 (fun b => m (c, b)) (Proc.devRef .tc main_v0) = _
    after_results
    rfl
  rw [e]
  exact shapeCast_a_1a_apply _ _ 0 q

/-- The second row is b2 laid out as one row. -/
theorem V1_b2row (c : Dev nD) (q : Fin 256) :
    V1 m ρ c main_v1 (ix2 (0 : Fin 1) q) = (m ((c : Thread nD τ).loc main_arg5)) (ix1 q) := by
  have e : (V1 m ρ c main_v1 : S1x256.Idx → Elt Ideal .f32)
      = shapeCast S1x256 (m ((c : Thread nD τ).loc main_arg5)) shapeCasts_S256_S1x256 := by
    show StableHlo.after hostOps0 (fun b => m (c, b)) (Proc.devRef .tc main_v1) = _
    after_results
    rfl
  rw [e]
  exact shapeCast_a_1a_apply _ _ 0 q

/-- The second pallas_call finds adj as launched: the first one only reads it. -/
theorem V2_adj (c : Dev nD) : V2 m ρ c main_arg1 = (m ((c : Thread nD τ).loc main_arg1)) :=
  ((W2_arr m ρ c 1).trans (((dat0 (V1 m ρ) c).arrAt_in 1 rfl _).trans (A_eq0 (V1 m ρ) c 1))).trans (V1_arg m ρ c main_arg1 (by decide) (by decide))

/-- and the first layer's result at the reference's second affine stage of the launch arrays. -/
theorem V2_h (c : Dev nD) :
    V2 m ρ c main_v2 = Cert.ReferenceIdeal.Read.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ?_
  refine (final0 (V1 m ρ) (m ((c : Thread nD τ).loc main_arg3)) (m ((c : Thread nD τ).loc main_arg5)) c (V1_b1row m ρ c) (V1_b2row m ρ c)).trans ?_
  unfold affine2Of
  rw [V1_arg m ρ c main_arg0 (by decide) (by decide), V1_arg m ρ c main_arg1 (by decide) (by decide),
    V1_arg m ρ c main_arg2 (by decide) (by decide), V1_arg m ρ c main_arg4 (by decide) (by decide)]

/-- THE RESULT: what the second pipeline leaves in its output array is the reference's result of the launch arrays. -/
theorem result_eq (c : Dev nD) :
    (dat1 (V2 m ρ) c).arrAt 2 cfg1.N
      = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  final1 (V2 m ρ) _ _ _ _ _ _ c (fun i => congrFun (V2_adj m ρ c) i) (fun i => congrFun (V2_h m ρ c) i)

end Cert.KernelIdeal.Layers

end
-- ==== Proof.lean ====
/-
  A two-layer graph convolution with a dense adjacency matrix,
      out = relu (adj · (relu (adj · (x · W1 + b1)) · W2 + b2)),
  computed by two pallas_calls over 25 bands of 400 rows of adj, against the same formula in plain array operations.

  The kernel's first pallas_call computes the hidden layer  x · W1 + b1  once, at the first grid point, into a scratch
  buffer it keeps, and at every point writes the band  relu (band · hidden) · W2 + b2  of the first layer's result; its
  second pallas_call keeps a copy of that result and writes the band  relu (band · copy)  of the output. With floats
  read as extended reals the roundings to bf16 on the way into the products are the identity and a matrix product is
  the plain sum over the contracted axis, so each band is, entry by entry, the reference's value at the band's rows:
  the same sums of the same products in the same order — no law of arithmetic beyond that is used, and the inputs'
  finiteness is not needed. The 25 bands cover the 10000 rows.

  The three programs' runs: the word-level kernel and the idealized kernel run by the same argument at either reading
  of floats (the two kernel bodies run on whole buffers; between grid points the scratch holds the value stored at the
  first point); the reference is straight-line array code. No item of any program writes an argument array. The
  idealization rewrote nothing, so there is nothing to preserve.
-/
import proofs.«100465_g12077448036904_cont_main3_85_6_alg».proof.Defs
import proofs.«100465_g12077448036904_cont_main3_85_6_alg».proof.Proof.Gen.Kernel
import proofs.«100465_g12077448036904_cont_main3_85_6_alg».proof.Proof.Gen.KernelIdeal
import proofs.«100465_g12077448036904_cont_main3_85_6_alg».proof.Proof.Gen.ReferenceIdeal
import proofs.«100465_g12077448036904_cont_main3_85_6_alg».proof.Proof.Gen.Pre_finite_inputs
import proofs.«100465_g12077448036904_cont_main3_85_6_alg».proof.Proof.Gen.ReferenceIdeal.Read
import proofs.«100465_g12077448036904_cont_main3_85_6_alg».proof.Proof.Kernel.Run
import proofs.«100465_g12077448036904_cont_main3_85_6_alg».proof.Proof.KernelIdeal.Run
import proofs.«100465_g12077448036904_cont_main3_85_6_alg».proof.Proof.IdealResult
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Layers.frame (F := Bits) m ρ

/-- So does the idealized kernel. -/
theorem frame_kernel_ideal : Cert.frame_KernelIdeal (hKernelIdeal := Cert.KernelIdeal.Gen.facts) (hPre_finite_inputs := Cert.Pre_finite_inputs.Gen.facts) :=
  fun m ρ _ => Cert.KernelIdeal.Layers.frame (F := Ideal) m ρ

/-- The reference runs: its generated run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values both programs end with the reference's last stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.result_eq m ρ c), (h c).2⟩)
      (Cert.KernelIdeal.Layers.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
